-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048x7x7 : Shape := ⟨4, ![128, 2048, 7, 7]⟩
abbrev S_ : Shape := ⟨0, ![]⟩

class Facts : Prop where
  bcast_S_S128x2048x7x7 : S_.BroadcastsInDim S128x2048x7x7 (![] : Fin 0 → Fin S128x2048x7x7.rank)
  reducesTo_S128x2048x7x7_S_d0_1_2_3 : S128x2048x7x7.ReducesTo [0, 1, 2, 3] S_
  h_S_ : 0 < S_.numel

variable [Facts]

def fn {F : FTy → Type} [FloatOps F] (main_arg0 : FVec F S128x2048x7x7 .f32) : IVec S_ 1 :=
  let main_v0 : FVec F S128x2048x7x7 .f32 := Host.absf main_arg0
  let main_cst : FVec F S_ .f32 := constant S_ .f32 0x7F800000#32
  let main_v1 : FVec F S128x2048x7x7 .f32 := broadcastInDim S128x2048x7x7 ![] bcast_S_S128x2048x7x7 main_cst
  let main_v2 : IVec S128x2048x7x7 1 := cmpf .olt main_v0 main_v1
  let main_c : IVec S_ 1 := constantI S_ 1 1#1
  let main_v3 : IVec S_ 1 := (fun x v => Host.reduce IntOp.andi x v reducesTo_S128x2048x7x7_S_d0_1_2_3 h_S_) main_v2 main_c
  main_v3
-- ==== Kernel.lean ====
abbrev S128x2048x7x7 : Shape := ⟨4, ![128, 2048, 7, 7]⟩
abbrev S7x7x128x2048 : Shape := ⟨4, ![7, 7, 128, 2048]⟩
abbrev S2048x128 : Shape := ⟨2, ![2048, 128]⟩
abbrev S128x2048x1x1 : Shape := ⟨4, ![128, 2048, 1, 1]⟩
abbrev S7x7x16x2048 : Shape := ⟨4, ![7, 7, 16, 2048]⟩
abbrev S256x128 : Shape := ⟨2, ![256, 128]⟩
abbrev S16x2048 : Shape := ⟨2, ![16, 2048]⟩

abbrev nBuf : Space → Nat
  | .hbm => 4
  | .vmem => 4
  | .smem => 0
  | _ => 0

abbrev bufTy : (tb : Table) → Fin (tcTables nBuf tb) → BufTy
  | .hbm, ⟨0, _⟩ => ⟨S128x2048x7x7, .f32⟩
  | .hbm, ⟨1, _⟩ => ⟨S7x7x128x2048, .f32⟩
  | .hbm, ⟨2, _⟩ => ⟨S2048x128, .f32⟩
  | .hbm, ⟨3, _⟩ => ⟨S128x2048x1x1, .f32⟩
  | .local _ .vmem, ⟨0, _⟩ => ⟨S7x7x16x2048, .f32⟩
  | .local _ .vmem, ⟨1, _⟩ => ⟨S7x7x16x2048, .f32⟩
  | .local _ .vmem, ⟨2, _⟩ => ⟨S256x128, .f32⟩
  | .local _ .vmem, ⟨3, _⟩ => ⟨S256x128, .f32⟩
  | _, _ => ⟨S128x2048x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x7x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S128x2048x7x7_S7x7x128x2048_2_3_0_1 : S128x2048x7x7.Transposes [2, 3, 0, 1] S7x7x128x2048
  shapeCasts_S2048x128_S128x2048x1x1 : S2048x128.ShapeCasts S128x2048x1x1
  inb_S7x7x16x2048_S7x7x16x2048_0_0_0_0 : ∀ a, (![0, 0, 0, 0] : Fin 4 → Nat) a + S7x7x16x2048.size a ≤ S7x7x16x2048.size a
  h_S7x7x16x2048 : 0 < S7x7x16x2048.numel
  shapeCasts_S7x7x16x2048_S7x7x16x2048 : S7x7x16x2048.ShapeCasts S7x7x16x2048
  reduces_S7x7x16x2048_S16x2048 : S7x7x16x2048.Reduces [0, 1] S16x2048
  shapeCasts_S16x2048_S256x128 : S16x2048.ShapeCasts S256x128
  inb_S256x128_S256x128_0_0 : ∀ a, (![0, 0] : Fin 2 → Nat) a + S256x128.size a ≤ S256x128.size a
  h_S256x128 : 0 < S256x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x7x16x2048.size a ≤ S7x7x128x2048.size a
  hwx0_0 : ∀ i : grid0.Coords, EltTy.bits .f32 = 32 ∨ (Rect.block (s := S7x7x128x2048) S7x7x16x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S2048x128.size a
  hwx0_1 : ∀ i : grid0.Coords, EltTy.bits .f32 = 32 ∨ (Rect.block (s := S2048x128) S256x128.size (cc0_transform_1 i) (hinb0_1 i)).WholeWords (EltTy.packing .f32)

variable [Facts₀]

abbrev win0_0 : Pipeline.Window sig grid0 :=
  Pipeline.Window.ofSpec (Memref.whole main_call0_v0) S7x7x16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S256x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x2048x7x7 : Shape := ⟨4, ![128, 2048, 7, 7]⟩
abbrev S262144x49 : Shape := ⟨2, ![262144, 49]⟩
abbrev S262144x1 : Shape := ⟨2, ![262144, 1]⟩
abbrev S128x2048x1x1 : Shape := ⟨4, ![128, 2048, 1, 1]⟩
abbrev S12288x49 : Shape := ⟨2, ![12288, 49]⟩
abbrev S12288x1 : Shape := ⟨2, ![12288, 1]⟩
abbrev S12288 : Shape := ⟨1, ![12288]⟩

abbrev nBuf : Space → Nat
  | .hbm => 4
  | .vmem => 4
  | .smem => 0
  | _ => 0

abbrev bufTy : (tb : Table) → Fin (tcTables nBuf tb) → BufTy
  | .hbm, ⟨0, _⟩ => ⟨S128x2048x7x7, .f32⟩
  | .hbm, ⟨1, _⟩ => ⟨S262144x49, .f32⟩
  | .hbm, ⟨2, _⟩ => ⟨S262144x1, .f32⟩
  | .hbm, ⟨3, _⟩ => ⟨S128x2048x1x1, .f32⟩
  | .local _ .vmem, ⟨0, _⟩ => ⟨S12288x49, .f32⟩
  | .local _ .vmem, ⟨1, _⟩ => ⟨S12288x49, .f32⟩
  | .local _ .vmem, ⟨2, _⟩ => ⟨S12288x1, .f32⟩
  | .local _ .vmem, ⟨3, _⟩ => ⟨S12288x1, .f32⟩
  | _, _ => ⟨S128x2048x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12288x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12288x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S128x2048x7x7_S262144x49 : S128x2048x7x7.ShapeCasts S262144x49
  shapeCasts_S262144x1_S128x2048x1x1 : S262144x1.ShapeCasts S128x2048x1x1
  inb_S12288x49_S12288x49_0_0 : ∀ a, (![0, 0] : Fin 2 → Nat) a + S12288x49.size a ≤ S12288x49.size a
  h_S12288x49 : 0 < S12288x49.numel
  shapeCasts_S12288x49_S12288x49 : S12288x49.ShapeCasts S12288x49
  reduces_S12288x49_S12288 : S12288x49.Reduces [1] S12288
  shapeCasts_S12288_S12288x1 : S12288.ShapeCasts S12288x1
  inb_S12288x1_S12288x1_0_0 : ∀ a, (![0, 0] : Fin 2 → Nat) a + S12288x1.size a ≤ S12288x1.size a
  h_S12288x1 : 0 < S12288x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S12288x49.size a < S262144x49.size a
  hwx0_0 : ∀ i : grid0.Coords, EltTy.bits .f32 = 32 ∨ (Rect.unit (s := S262144x49) (fun a => cc0_transform_0 i a * S12288x49.size a) (fun a => (Pipeline.Clip.of (cc0_transform_0 i a) (S12288x49.size a) (S262144x49.size a)).extent (S12288x49.size a)) fun a => Pipeline.Clip.inb (Pipeline.Clip.ok_of (hstart0_0 i a))).WholeWords (EltTy.packing .f32)
  hwxs0_0 : ∀ i : grid0.Coords, EltTy.bits .f32 = 32 ∨ (Rect.unit (s := S12288x49) (fun _ => 0) (fun a => (Pipeline.Clip.of (cc0_transform_0 i a) (S12288x49.size a) (S262144x49.size a)).extent (S12288x49.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S12288x1.size a < S262144x1.size a
  hwx0_1 : ∀ i : grid0.Coords, EltTy.bits .f32 = 32 ∨ (Rect.unit (s := S262144x1) (fun a => cc0_transform_1 i a * S12288x1.size a) (fun a => (Pipeline.Clip.of (cc0_transform_1 i a) (S12288x1.size a) (S262144x1.size a)).extent (S12288x1.size a)) fun a => Pipeline.Clip.inb (Pipeline.Clip.ok_of (hstart0_1 i a))).WholeWords (EltTy.packing .f32)
  hwxs0_1 : ∀ i : grid0.Coords, EltTy.bits .f32 = 32 ∨ (Rect.unit (s := S12288x1) (fun _ => 0) (fun a => (Pipeline.Clip.of (cc0_transform_1 i a) (S12288x1.size a) (S262144x1.size a)).extent (S12288x1.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpecClip (Memref.whole main_call0_v0) S12288x49.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_call0_v1) S12288x1.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== Proof.PoolSpec.lean ====
/-
  Global average pooling of a [128, 2048, 7, 7] array over its last two axes, as both programs compute it at the
  ideal values: for each of the 128·2048 = 262144 leading positions, the sum of the 49 trailing entries times ONE
  constant (the single-precision number nearest 1/49, kept as its bit pattern: the same word on both sides, never
  evaluated).

  The leading position is named by its row-major number `f = n·2048 + c` and the trailing one by `k = h·7 + w`,
  so that every intermediate array of either program ([262144, 49], [262144, 1], [2048, 128], [128, 2048, 1, 1])
  reads the same function of a natural number. Also here: the two re-indexings of finite sums the two programs
  differ by — a sum over a 7 × 7 square as a sum over 49 positions, and a reduction over the two leading axes of a
  rank-4 array as a sum over that square.
-/
import Idealize.ShloMosaic.PureOps.Ideal
import Idealize.ShloMosaic.PureOps.Ideal.Laws
import Idealize.ShloMosaic.Lib.ValueIdx

noncomputable section

namespace Cert.Pool

open Idealize.ShloMosaic Idealize.ShloMosaic.ValueIdx

/-- The input's shape. -/
abbrev SIn : Shape := ⟨4, ![128, 2048, 7, 7]⟩

/-- The input index at leading position `f = n·2048 + c` and trailing position `k = h·7 + w` (total in both
    numbers: each coordinate is reduced into its range). -/
def src (f k : Nat) : SIn.Idx :=
  ix4 (⟨f / 2048 % 128, Nat.mod_lt _ (by norm_num)⟩ : Fin 128) (⟨f % 2048, Nat.mod_lt _ (by norm_num)⟩ : Fin 2048)
    (⟨k / 7 % 7, Nat.mod_lt _ (by norm_num)⟩ : Fin 7) (⟨k % 7, Nat.mod_lt _ (by norm_num)⟩ : Fin 7)

/-- The constant both programs multiply by. -/
def scale : EReal := Ideal.ofBits .f32 0x3CA72F05#32

/-- The pooled value at leading position `f`: the 49 trailing entries summed, times the constant. -/
def mean (x : SIn.Idx → EReal) (f : Nat) : EReal := (∑ k : Fin 49, x (src f k.val)) * scale

/-- Two indices of the input with equal coordinates are equal. -/
theorem idx_ext {i j : SIn.Idx} (h0 : (i 0).val = (j 0).val) (h1 : (i 1).val = (j 1).val) (h2 : (i 2).val = (j 2).val)
    (h3 : (i 3).val = (j 3).val) : i = j :=
  funext fun a => Fin.ext (by
    match a with
    | ⟨0, _⟩ => exact h0
    | ⟨1, _⟩ => exact h1
    | ⟨2, _⟩ => exact h2
    | ⟨3, _⟩ => exact h3)

theorem src_val0 (f k : Nat) : (src f k 0).val = f / 2048 % 128 := rfl
theorem src_val1 (f k : Nat) : (src f k 1).val = f % 2048 := rfl
theorem src_val2 (f k : Nat) : (src f k 2).val = k / 7 % 7 := rfl
theorem src_val3 (f k : Nat) : (src f k 3).val = k % 7 := rfl

/-- A sum over a 7 × 7 square is the sum over its 49 positions `k = h·7 + w`. -/
theorem sum_square {M : Type*} [AddCommMonoid M] (g : Fin 7 → Fin 7 → M) :
    ∑ p : Fin 7 × Fin 7, g p.1 p.2
      = ∑ k : Fin 49, g ⟨k.val / 7 % 7, Nat.mod_lt _ (by norm_num)⟩ ⟨k.val % 7, Nat.mod_lt _ (by norm_num)⟩ := by
  refine Fintype.sum_equiv (finProdFinEquiv (m := 7) (n := 7)) _ _ fun p => ?_
  obtain ⟨a, b⟩ := p
  have ha := a.isLt
  have hb := b.isLt
  have e1 : (finProdFinEquiv (m := 7) (n := 7) (a, b)).val = b.val + 7 * a.val := rfl
  congr 1
  · apply Fin.ext
    show a.val = (finProdFinEquiv (m := 7) (n := 7) (a, b)).val / 7 % 7
    rw [e1]; omega
  · apply Fin.ext
    show b.val = (finProdFinEquiv (m := 7) (n := 7) (a, b)).val % 7
    rw [e1]; omega

/-- A reduction over the two leading axes of a [7, 7, 16, 2048] array, at (r, q): the sum over the square of the
    entries at (h, w, r, q). -/
theorem sum_leading {M : Type*} [AddCommMonoid M]
    (h : (⟨4, ![7, 7, 16, 2048]⟩ : Shape).Reduces [0, 1] ⟨2, ![16, 2048]⟩)
    (g : (⟨4, ![7, 7, 16, 2048]⟩ : Shape).Idx → M) (j : (⟨2, ![16, 2048]⟩ : Shape).Idx) :
    ∑ i ∈ Finset.univ.filter (fun i => h.drop i = j), g i = ∑ p : Fin 7 × Fin 7, g (ix4 p.1 p.2 (j 0) (j 1)) := by
  refine Finset.sum_bij' (fun i _ => ((i 0, i 1) : Fin 7 × Fin 7)) (fun p _ => ix4 p.1 p.2 (j 0) (j 1))
    (fun _ _ => Finset.mem_univ _) (fun p _ => ?_) (fun i hi => ?_) (fun p _ => rfl) (fun i hi => ?_)
  · rw [Finset.mem_filter]
    refine ⟨Finset.mem_univ _, funext fun b => Fin.ext ?_⟩
    match b with
    | ⟨0, _⟩ => exact h.drop_apply_val_of_eq _ (0 : Fin 2) (2 : Fin 4)
    | ⟨1, _⟩ => exact h.drop_apply_val_of_eq _ (1 : Fin 2) (3 : Fin 4)
  · have hj : h.drop i = j := (Finset.mem_filter.mp hi).2
    have h0 : ((h.drop i) (0 : Fin 2) : Nat) = i (2 : Fin 4) := h.drop_apply_val_of_eq i (0 : Fin 2) (2 : Fin 4)
    have h1 : ((h.drop i) (1 : Fin 2) : Nat) = i (3 : Fin 4) := h.drop_apply_val_of_eq i (1 : Fin 2) (3 : Fin 4)
    rw [hj] at h0 h1
    funext a
    apply Fin.ext
    match a with
    | ⟨0, _⟩ => rfl
    | ⟨1, _⟩ => rfl
    | ⟨2, _⟩ => exact h0
    | ⟨3, _⟩ => exact h1
  · have hj : h.drop i = j := (Finset.mem_filter.mp hi).2
    have h0 : ((h.drop i) (0 : Fin 2) : Nat) = i (2 : Fin 4) := h.drop_apply_val_of_eq i (0 : Fin 2) (2 : Fin 4)
    have h1 : ((h.drop i) (1 : Fin 2) : Nat) = i (3 : Fin 4) := h.drop_apply_val_of_eq i (1 : Fin 2) (3 : Fin 4)
    rw [hj] at h0 h1
    congr 1
    funext a
    apply Fin.ext
    match a with
    | ⟨0, _⟩ => rfl
    | ⟨1, _⟩ => rfl
    | ⟨2, _⟩ => exact h0.symm
    | ⟨3, _⟩ => exact h1.symm

end Cert.Pool

end
-- ==== Proof.KerValue.lean ====
/-
  The kernel at the ideal values. The argument [128, 2048, 7, 7] is transposed to [7, 7, 128, 2048]; the kernel takes
  16 of the 128 planes-of-2048 at a time (8 grid points), sums each [7, 7, 16, 2048] block over its two leading axes,
  multiplies by the constant, and stores the [16, 2048] result re-laid row-major as [256, 128] into rows 256·t … of a
  [2048, 128] array, which the program finally reshapes to [128, 2048, 1, 1].

  Row-major position is what every step preserves: entry (y0, y1) of block t sits at position (256·t + y0)·128 + y1 of
  the result, which is leading position n·2048 + c of the argument with n = 16·t + r; so the result array is the pooled
  value read at the row-major position, and the final reshape reads it at n·2048 + c.
-/
import proofs.«104513_g2000505477142475_pallasbulk_808_11_alg».proof.Proof.Gen.KernelIdeal.Frame
import proofs.«104513_g2000505477142475_pallasbulk_808_11_alg».proof.Proof.PoolSpec
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

namespace Cert.KernelIdeal.Planes

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## The body's arithmetic at an index -/

/-- The [16, 2048] result re-laid as [256, 128]: entry (y0, y1) is the entry at the same row-major position. -/
theorem relaid_apply {α : Type} (v : S16x2048.Idx → α) (h : S16x2048.ShapeCasts S256x128) (y0 : Fin 256) (y1 : Fin 128)
    (r : Fin 16) (q : Fin 2048) (hrq : r.val * 2048 + q.val = y0.val * 128 + y1.val) :
    shapeCast S256x128 v h (ix2 y0 y1) = v (ix2 r q) :=
  shapeCast_apply v h _ _ (by
    rw [Shape.rowMajor_val_two, Shape.rowMajor_val_two]
    exact hrq)

/-- The sum over the two leading axes of a [7, 7, 16, 2048] array with the printed zero accumulator, at (r, q). -/
theorem planeSum_apply (src : FVec Ideal S7x7x16x2048 .f32) (h : S7x7x16x2048.Reduces [0, 1] S16x2048) (hφ : FKind.Formats .f32)
    (hacc : (0x00000000#32 : BitVec 32) = 0x00000000#32) (r : Fin 16) (q : Fin 2048) :
    multiReduction .add [0, 1] S16x2048 src 0x00000000#32 h hφ hacc (ix2 r q)
      = ∑ p : Fin 7 × Fin 7, src (ix4 p.1 p.2 r q) :=
  Cert.Pool.sum_leading h src (ix2 r q)

/-- What the output buffer holds after the body at (y0, y1), from the input block: the 49 entries over (r, q) summed,
    times the constant, (r, q) at the same row-major position. -/
theorem out_apply (x0 : Vec Ideal S7x7x16x2048 .f32) (y0 : Fin 256) (y1 : Fin 128) (r : Fin 16) (q : Fin 2048)
    (hrq : r.val * 2048 + q.val = y0.val * 128 + y1.val) :
    out0_1 (F := Ideal) x0 (ix2 y0 y1) = (∑ p : Fin 7 × Fin 7, x0 (ix4 p.1 p.2 r q)) * Cert.Pool.scale := by
  have hz2 : (![0, 0] : Fin 2 → Nat) = fun _ => 0 := funext fun a => by fin_cases a <;> rfl
  have hz4 : (![0, 0, 0, 0] : Fin 4 → Nat) = fun _ => 0 := funext fun a => by fin_cases a <;> rfl
  unfold out0_1
  rw [View.canon_unit_zero hz2]
  simp only [View.ld_unit_zero (S := S7x7x16x2048) hz4]
  unfold k0_pay1
  refine (relaid_apply _ _ y0 y1 r q hrq).trans ?_
  show (multiReduction .add [0, 1] S16x2048 _ _ _ _ _ (ix2 r q)) * _ = _
  refine congrArg (· * Cert.Pool.scale) ?_
  refine (planeSum_apply _ _ _ _ r q).trans ?_
  rw [shapeCast_self]

/-- One grid point, over variables: if the input block at (h, w, r, q) is the argument at (16·t + r, q, h, w), the output
    buffer at (y0, y1) is the pooled value at row-major position (256·t + y0)·128 + y1. -/
theorem point_eq (x : Cert.Pool.SIn.Idx → EReal) (x0 : Vec Ideal S7x7x16x2048 .f32) (tt : Nat) (htt : tt < 8)
    (hx0 : ∀ (h w : Fin 7) (r : Fin 16) (q : Fin 2048) (n : Fin 128), n.val = 16 * tt + r.val →
      x0 (ix4 h w r q) = x (ix4 n q h w))
    (y0 : Fin 256) (y1 : Fin 128) :
    out0_1 (F := Ideal) x0 (ix2 y0 y1) = Cert.Pool.mean x ((256 * tt + y0.val) * 128 + y1.val) := by
  have h0 := y0.isLt
  have h1 := y1.isLt
  have hr : (y0.val * 128 + y1.val) / 2048 < 16 := by omega
  have hn : 16 * tt + (y0.val * 128 + y1.val) / 2048 < 128 := by omega
  rw [out_apply x0 y0 y1 ⟨(y0.val * 128 + y1.val) / 2048, hr⟩ ⟨(y0.val * 128 + y1.val) % 2048, Nat.mod_lt _ (by norm_num)⟩
    (by show (y0.val * 128 + y1.val) / 2048 * 2048 + (y0.val * 128 + y1.val) % 2048 = y0.val * 128 + y1.val; omega)]
  unfold Cert.Pool.mean
  refine congrArg (· * Cert.Pool.scale) ?_
  refine (Fintype.sum_congr _ _ fun p : Fin 7 × Fin 7 =>
    hx0 p.1 p.2 ⟨(y0.val * 128 + y1.val) / 2048, hr⟩ ⟨(y0.val * 128 + y1.val) % 2048, Nat.mod_lt _ (by norm_num)⟩
      ⟨16 * tt + (y0.val * 128 + y1.val) / 2048, hn⟩ rfl).trans ?_
  refine (Cert.Pool.sum_square (fun h w => x (ix4 (⟨16 * tt + (y0.val * 128 + y1.val) / 2048, hn⟩ : Fin 128)
    (⟨(y0.val * 128 + y1.val) % 2048, Nat.mod_lt _ (by norm_num)⟩ : Fin 2048) h w))).trans ?_
  refine Finset.sum_congr rfl fun k _ => congrArg x ?_
  refine Cert.Pool.idx_ext ?_ ?_ rfl rfl
  · show 16 * tt + (y0.val * 128 + y1.val) / 2048 = ((256 * tt + y0.val) * 128 + y1.val) / 2048 % 128
    omega
  · show (y0.val * 128 + y1.val) % 2048 = ((256 * tt + y0.val) * 128 + y1.val) % 2048
    omega

/-! ## The result array -/

variable (m : (ℓ : Loc nD τ sig) → Buf (Elt Ideal) ℓ) (ρ : Dev nD → PrngReg)

/-- The operand array as the region finds it: the argument transposed. -/
theorem operand_eq (c : Dev nD) : (V m c main_call0_v0 : S7x7x128x2048.Idx → EReal)
    = transpose S7x7x128x2048 [2, 3, 0, 1] (m ((c : Thread nD τ).loc main_arg0)) transposes_S128x2048x7x7_S7x7x128x2048_2_3_0_1 := by
  show StableHlo.after hostOps0 (fun b => m (c, b)) (Proc.devRef .tc main_call0_v0) = _
  after_results
  rfl

/-- The operand array at (h, w, n, q) is the argument at (n, q, h, w). -/
theorem operand_apply (c : Dev nD) (h w : Fin 7) (n : Fin 128) (q : Fin 2048) :
    V m c main_call0_v0 (ix4 h w n q) = m ((c : Thread nD τ).loc main_arg0) (ix4 n q h w) := by
  rw [operand_eq]
  exact transpose_apply _ _ _ _ _ (fun b => by
    match b with
    | ⟨0, _⟩ => rfl
    | ⟨1, _⟩ => rfl
    | ⟨2, _⟩ => rfl
    | ⟨3, _⟩ => rfl)

/-- The [2048, 128] result array, as one function of the argument: the pooled value at the row-major position. -/
def planesOut (x : Cert.Pool.SIn.Idx → EReal) : S2048x128.Idx → EReal :=
  fun i => Cert.Pool.mean x ((i 0).val * 128 + (i 1).val)

/-- The windows' blocks over the grid: input block `t` is planes 16·t … of the third axis, output block `t` rows 256·t …. -/
theorem win_facts : ∀ t : Fin cfg0.N,
    win0_0.index t 0 = 0 ∧ win0_0.index t 1 = 0 ∧ win0_0.index t 2 = t.val ∧ win0_0.index t 3 = 0
    ∧ win0_1.index t 0 = t.val ∧ win0_1.index t 1 = 0 :=
  (by decide +kernel : ∀ t : Fin grid0.N,
    win0_0.index t 0 = 0 ∧ win0_0.index t 1 = 0 ∧ win0_0.index t 2 = t.val ∧ win0_0.index t 3 = 0
    ∧ win0_1.index t 0 = t.val ∧ win0_1.index t 1 = 0)

/-- What point `t` writes back is block `t` of `planesOut` of the argument. -/
theorem flushed_eq (c : Dev nD) (t : Fin cfg0.N) :
    (dats m 0 c).flushed 1 t = ((cfg0.win 1).blk t).view.read (Elt Ideal) (planesOut (m ((c : Thread nD τ).loc main_arg0))) := by
  show (dats m 0 c).after 1 t = _
  rw [after0_1]
  have ht : t.val < 8 := Nat.lt_of_lt_of_eq t.isLt N_0
  obtain ⟨i00, i01, i02, i03, i10, i11⟩ := win_facts t
  funext (y : S256x128.Idx)
  obtain ⟨y0, y1, rfl⟩ : ∃ (y0 : Fin 256) (y1 : Fin 128), y = ix2 y0 y1 := ⟨y 0, y 1, eq_ix2 y⟩
  refine (point_eq (m ((c : Thread nD τ).loc main_arg0)) (iblk m c 0 t) t.val ht ?_ y0 y1).trans ?_
  · intro h w r q n hn
    show V m c main_call0_v0 (((cfg0.win 0).blk t).view.emb (ix4 h w r q)) = _
    refine Eq.trans (congrArg _ ?_) (operand_apply m c h w n q)
    funext a
    apply Fin.ext
    match a with
    | ⟨0, _⟩ =>
      show win0_0.index t 0 * 7 + 1 * h.val = h.val
      rw [i00]; omega
    | ⟨1, _⟩ =>
      show win0_0.index t 1 * 7 + 1 * w.val = w.val
      rw [i01]; omega
    | ⟨2, _⟩ =>
      show win0_0.index t 2 * 16 + 1 * r.val = n.val
      rw [i02, hn]; omega
    | ⟨3, _⟩ =>
      show win0_0.index t 3 * 2048 + 1 * q.val = q.val
      rw [i03]; omega
  · show _ = planesOut (m ((c : Thread nD τ).loc main_arg0)) (((cfg0.win 1).blk t).view.emb (ix2 y0 y1))
    unfold planesOut
    refine congrArg (Cert.Pool.mean _) ?_
    show (256 * t.val + y0.val) * 128 + y1.val
      = (win0_1.index t 0 * 256 + 1 * y0.val) * 128 + (win0_1.index t 1 * 128 + 1 * y1.val)
    rw [i10, i11]; omega

/-- An index of the result array is under point `t`'s block iff its row is one of the block's 256. -/
theorem mem_blk (t : Fin cfg0.N) (i : S2048x128.Idx) :
    i ∈ ((cfg0.win 1).blk t).view.set ↔ t.val * 256 ≤ (i 0).val ∧ (i 0).val < t.val * 256 + 256 := by
  show i ∈ ((View.whole main_call0_v1).slice (win0_1.rect t)).set ↔ _
  rw [View.set_slice_whole, Rect.mem_set_unit]
  obtain ⟨-, -, -, -, i10, i11⟩ := win_facts t
  have h1 : (i 1).val < 128 := (i 1).isLt
  constructor
  · intro h
    have := h 0
    change win0_1.index t 0 * 256 ≤ (i 0).val ∧ (i 0).val < win0_1.index t 0 * 256 + 256 at this
    rw [i10] at this
    exact this
  · intro h a
    match a with
    | ⟨0, _⟩ =>
      change win0_1.index t 0 * 256 ≤ (i 0).val ∧ (i 0).val < win0_1.index t 0 * 256 + 256
      rw [i10]; exact h
    | ⟨1, _⟩ =>
      change win0_1.index t 1 * 128 ≤ (i 1).val ∧ (i 1).val < win0_1.index t 1 * 128 + 128
      rw [i11]; omega

/-- The 8 blocks cover the array: row `r` is in block `r / 256`. -/
theorem cover (i : S2048x128.Idx) : ∃ t : Fin cfg0.N, (cfg0.win 1).flush t = true ∧ i ∈ ((cfg0.win 1).blk t).view.set := by
  have hi : (i 0).val < 2048 := (i 0).isLt
  have hN : cfg0.N = 8 := N_0
  refine ⟨⟨(i 0).val / 256, by rw [hN]; omega⟩, flush0_1 _, ?_⟩
  rw [mem_blk]
  show (i 0).val / 256 * 256 ≤ (i 0).val ∧ (i 0).val < (i 0).val / 256 * 256 + 256
  omega

/-- The result array after the run. -/
theorem final (c : Dev nD) : (dats m 0 c).arrAt 1 cfg0.N = planesOut (m ((c : Thread nD τ).loc main_arg0)) :=
  (dats m 0 c).arrAt_eq_of_cover 1 (planesOut (m ((c : Thread nD τ).loc main_arg0))) (fun t _ => flushed_eq m c t) cover

/-! ## The program's result -/

/-- The program's result buffer after the run: the kernel's result array reshaped. -/
theorem result_eq (c : Dev nD) :
    (Pipeline.afterTail₀ cfgs (dats m) 0 (V0 m) [hostOps1] c main_v0 : S128x2048x1x1.Idx → EReal)
      = shapeCast S128x2048x1x1 (planesOut (m ((c : Thread nD τ).loc main_arg0))) shapeCasts_S2048x128_S128x2048x1x1 := by
  unfold Pipeline.afterTail₀
  show StableHlo.after hostOps1 _ (Proc.devRef .tc main_v0) = _
  after_results
  have hW : Pipeline.withArrays (cfgs 0).spec c (V0 m c) (fun w => (dats m 0 c).arrAt w (cfgs 0).N)
      (Proc.devRef .tc main_call0_v1) = planesOut (m ((c : Thread nD τ).loc main_arg0)) :=
    (Pipeline.withArrays_arr spec0 launch0.win.arr_inj c _ _ 1).trans (final m c)
  funext i
  show shapeCast S128x2048x1x1 (Pipeline.withArrays (cfgs 0).spec c (V0 m c) (fun w => (dats m 0 c).arrAt w (cfgs 0).N)
      (Proc.devRef .tc main_call0_v1)) shapeCasts_S2048x128_S128x2048x1x1 i = _
  rw [hW]

/-- The program's result at (n, c, 0, 0): the pooled value at leading position n·2048 + c. -/
theorem result_apply (c : Dev nD) (i : S128x2048x1x1.Idx) :
    (Pipeline.afterTail₀ cfgs (dats m) 0 (V0 m) [hostOps1] c main_v0 : S128x2048x1x1.Idx → EReal) i
      = Cert.Pool.mean (m ((c : Thread nD τ).loc main_arg0)) ((i 0).val * 2048 + (i 1).val) := by
  rw [result_eq]
  have h0 : (i 0).val < 128 := (i 0).isLt
  have h1 : (i 1).val < 2048 := (i 1).isLt
  have h2 : (i 2).val < 1 := (i 2).isLt
  have h3 : (i 3).val < 1 := (i 3).isLt
  have hr : ((i 0).val * 2048 + (i 1).val) / 128 < 2048 := by omega
  refine (shapeCast_apply _ _ i (ix2 (⟨((i 0).val * 2048 + (i 1).val) / 128, hr⟩ : Fin 2048)
      (⟨((i 0).val * 2048 + (i 1).val) % 128, Nat.mod_lt _ (by norm_num)⟩ : Fin 128)) (by
    rw [Shape.rowMajor_val_two, Shape.rowMajor_val_four]
    show ((i 0).val * 2048 + (i 1).val) / 128 * 128 + ((i 0).val * 2048 + (i 1).val) % 128
      = (((i 0).val * 2048 + (i 1).val) * 1 + (i 2).val) * 1 + (i 3).val
    omega)).trans ?_
  unfold planesOut
  refine congrArg (Cert.Pool.mean _) ?_
  show ((i 0).val * 2048 + (i 1).val) / 128 * 128 + ((i 0).val * 2048 + (i 1).val) % 128 = (i 0).val * 2048 + (i 1).val
  omega

end Cert.KernelIdeal.Planes

end
-- ==== Proof.RefBody.lean ====
/-
  The reference's kernel: 262144 rows of 49 numbers each, taken 12288 rows at a time (22 blocks, the last one
  holding only 4096 rows of the array); each row is summed and the sum multiplied by one constant.

  This module runs the kernel body on its two staging buffers: whatever the input buffer holds, the output buffer
  ends at the canonical result of the one store (the row sums times the constant, over the whole buffer), the
  input buffer unchanged.
-/
import proofs.«104513_g2000505477142475_pallasbulk_808_11_alg».proof.Proof.Gen.ReferenceIdeal.Frame
import proofs.«104513_g2000505477142475_pallasbulk_808_11_alg».proof.Proof.Gen.ReferenceIdeal.Skeleton

set_option maxRecDepth 16384

noncomputable section

namespace Cert.ReferenceIdeal.Rows

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole input buffer and the whole output buffer, as the rectangles the body loads and stores through. -/
abbrev rIn : Rect S12288x49 := Rect.unit (s := S12288x49) ![0, 0] S12288x49.size inb_S12288x49_S12288x49_0_0
abbrev rOut : Rect S12288x1 := Rect.unit (s := S12288x1) ![0, 0] S12288x1.size inb_S12288x1_S12288x1_0_0

/-- What the output buffer holds after the body, from what the input buffer holds: the one store's payload. -/
def outBuf (x0 : Vec F S12288x49 .f32) : Vec F S12288x1 .f32 :=
  View.canon [⟨rOut, k0_pay1 (View.ld x0 rIn)⟩]

/-- The one store covers the output buffer. -/
theorem cover_out (p0 : Vec F S12288x1 .f32) (y : S12288x1.Idx) :
    ∃ pc ∈ ([⟨rOut, p0⟩] : List (View.Piece (Elt F) S12288x1 .f32)), y ∈ pc.1.set :=
  View.cover_of_tiled [⟨rOut, p0⟩] S12288x1.size (by rfl) y

set_option maxHeartbeats 1000000 in
/-- The body on whole staging memrefs: the input's at contents `x0`, the output's at anything; it ends with the
    input's as it was and the output's at `outBuf x0`. -/
theorem sound_kernel (c : Dev nD) (E : Set ℕ) (i : grid0.Coords) (arg1 : Memref sig .tc .vmem S12288x49 .f32) (harg1 : arg1.IsWhole)
    (arg2 : Memref sig .tc .vmem S12288x1 .f32) (harg2 : arg2.IsWhole)
    (x0 : Vec F S12288x49 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBuf x0)) -∗ K ⟨⟩))
      ⊢ wp frame (wpE (defs₀ (F := F)) Variants.none c none) E (cc0__gap_kernel_single i arg1 harg1 arg2 harg2) K := by
  simp only [cc0__gap_kernel_single_eq_skeleton]; unfold cc0__gap_kernel_single_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

end Cert.ReferenceIdeal.Rows

end
-- ==== Proof.RefRun.lean ====
/-
  The reference's kernel over its 22 blocks of 12288 rows, at the ideal values.

  What the body computes: row r of the output buffer is the sum of the 49 entries of row r of the input buffer, times
  the constant — so the output rows that lie inside the array depend only on the input rows inside the array, whatever
  the last block's staging buffer holds past the array's end (rows 4096 and up of block 21). That is what the run of
  the pipeline needs of the body; from the run, the [262144, 1] result array is read back as one function of the
  [262144, 49] operand array: each row's sum times the constant.
-/
import proofs.«104513_g2000505477142475_pallasbulk_808_11_alg».proof.Proof.RefBody
import proofs.«104513_g2000505477142475_pallasbulk_808_11_alg».proof.Proof.PoolSpec
import Idealize.ShloMosaic.Lib.Pipeline.Value
import Idealize.ShloMosaic.Lib.ValueIdx
import Idealize.ShloMosaic.PureOps.Ideal.Laws

set_option maxRecDepth 16384

noncomputable section

namespace Cert.ReferenceIdeal.Rows

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The body's arithmetic, row by row -/

/-- Each row's 49 entries summed, times the constant. -/
def rowMean (X : S12288x49.Idx → EReal) : S12288x1.Idx → EReal :=
  fun j => (∑ k : Fin 49, X (ix2 (j 0) k)) * Cert.Pool.scale

/-- A one-axis sum of a [12288, 49] array at row r, with the printed zero accumulator. -/
theorem rowSum_apply (src : FVec Ideal S12288x49 .f32) (h : S12288x49.Reduces [1] S12288) (hφ : FKind.Formats .f32)
    (hacc : (0x00000000#32 : BitVec 32) = 0x00000000#32) (r : Fin 12288) :
    multiReduction .add [1] S12288 src 0x00000000#32 h hφ hacc (ix1 r) = ∑ k : Fin 49, src (ix2 r k) := by
  refine (Ideal.multiReduction_add_single src 0x00000000#32 h hφ hacc (ix1 r)).trans ?_
  refine Finset.sum_congr rfl fun k _ => congrArg src ?_
  funext a
  apply Fin.ext
  match a with
  | ⟨0, _⟩ => rfl
  | ⟨1, _⟩ => rfl

/-- The column form of a vector: a [12288] array cast to [12288, 1] reads, at (r, 0), the operand at r. -/
theorem column_apply {α : Type} (v : S12288.Idx → α) (h : S12288.ShapeCasts S12288x1) (j : S12288x1.Idx) :
    shapeCast S12288x1 v h j = v (ix1 (j 0)) :=
  shapeCast_apply v h j (ix1 (j 0)) (by
    have h1 : (j 1).val < 1 := (j 1).isLt
    rw [Shape.rowMajor_val_one, Shape.rowMajor_val_two]
    show (j 0).val = (j 0).val * 1 + (j 1).val
    omega)

/-- The output buffer after the body is the row means of the input buffer. -/
theorem outBuf_eq (X : Vec Ideal S12288x49 .f32) : outBuf (F := Ideal) X = rowMean X := by
  have hz : (![0, 0] : Fin 2 → Nat) = fun _ => 0 := funext fun a => by fin_cases a <;> rfl
  unfold outBuf
  rw [View.canon_unit_zero hz]
  simp only [View.ld_unit_zero (S := S12288x49) hz]
  funext j
  unfold k0_pay1 rowMean
  show (shapeCast S12288x1 _ _ j) * _ = _
  rw [column_apply]
  refine congrArg (· * Cert.Pool.scale) ?_
  refine (rowSum_apply _ _ _ _ (j 0)).trans ?_
  rw [shapeCast_self]

/-! ## The pipeline's proof data -/

variable (m : (ℓ : Loc nD τ sig) → Buf (Elt Ideal) ℓ) (ρ : Dev nD → PrngReg)

/-- The input window's two axes are cut alike to the output window's rows and to all 49 columns. -/
theorem xsize_rows (i : grid0.Coords) : win0_0.xsize i 0 = win0_1.xsize i 0 := rfl
theorem xsize_cols (i : grid0.Coords) : win0_0.xsize i 1 = 49 := rfl

/-- The input staging buffer at point `t` as the proof data names it: the block's rows inside the array, and zeros
    on the rows past the array's end (nothing depends on the filler). -/
def inBuf (c : Dev nD) (t : Fin cfg0.N) : S12288x49.Idx → EReal :=
  win0_0.fill (grid0.coords t) (fun _ => 0) (iblk m c 0 t)

/-- The proof data: the arrays as the region finds them; after the body the input buffer at `inBuf` and the output
    buffer at its row means; as invariant the scoped buffers the body never touches; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => inBuf m c t
    | ⟨1, _⟩ => outBuf (F := Ideal) (inBuf m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = inBuf m c t := by dsimp only [dats]
theorem after_1 (c : Dev nD) (t : Fin cfg0.N) : (dats m 0 c).after 1 t = outBuf (F := Ideal) (inBuf m c t) := by
  dsimp only [dats]

/-- The input buffer when the body runs: just fetched — the block on the rows inside the array, anything past them. -/
theorem before_0 (c : Dev nD) (t : Fin cfg0.N) (d) :
    (dats m 0 c).before (0 : Fin 2) t d = win0_0.fill (grid0.coords t) d (iblk m c 0 t) := by
  unfold Dat.before; rw [if_pos (fetch0_0 t)]; rfl

/-- The output buffer when the body runs: anything (it was written back at the point before). -/
theorem before_1 (c : Dev nD) (t : Fin cfg0.N) (d) : (dats m 0 c).before (1 : Fin 2) t d = d := by
  refine (dats m 0 c).before_out_reset (1 : Fin 2) rfl t ?_ d
  by_cases ht : t.val = 0
  · exact .inl ht
  · exact .inr ⟨ht, flush0_1 _⟩

/-! ## The rows inside the array depend on the rows inside the array -/

/-- Two input buffers that agree on the rows the transfers move give output buffers that agree on them. -/
theorem cut_outBuf (i : grid0.Coords) (X Y : S12288x49.Idx → EReal) (h : win0_0.cut i X = win0_0.cut i Y) :
    win0_1.cut i (outBuf (F := Ideal) X) = win0_1.cut i (outBuf (F := Ideal) Y) := by
  rw [outBuf_eq, outBuf_eq]
  funext j
  show rowMean X (win0_1.xinj i j) = rowMean Y (win0_1.xinj i j)
  unfold rowMean
  refine congrArg (· * Cert.Pool.scale) (Finset.sum_congr rfl fun k _ => ?_)
  have hr : (j 0).val < win0_0.xsize i 0 := (xsize_rows i) ▸ (j 0).isLt
  have hk : k.val < win0_0.xsize i 1 := (xsize_cols i).symm ▸ k.isLt
  let j' : (win0_0.xblock i).Idx := fun a => match a with
    | ⟨0, _⟩ => ⟨(j 0).val, hr⟩
    | ⟨1, _⟩ => ⟨k.val, hk⟩
  have e : win0_0.xinj i j' = ix2 (win0_1.xinj i j 0) k := by
    funext a
    apply Fin.ext
    match a with
    | ⟨0, _⟩ => rfl
    | ⟨1, _⟩ => rfl
  have := congrFun h j'
  exact (congrArg X e).symm.trans (this.trans (congrArg Y e))

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns: each buffer stated on the rows its window's transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ (∃ d, owns (c : Thread nD τ) (st0_1 t) fullShare
        (win0_1.fill (grid0.coords t) d (win0_1.cut (grid0.coords t) ((dats m 0 c).after 1 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_0, after_1]
  iintro ⟨HΦ, Ho, ⟨%d0, H0⟩, ⟨%d1, H1⟩⟩
  rw [before_0 m c t d0, before_1 m c t d1]
  iapply (sound_kernel (F := Ideal) c Set.univ (grid0.coords t) _ _ _ _ (win0_0.fill (grid0.coords t) d0 (iblk m c 0 t)) _)
  isplitl [H0]; · iexact H0
  isplitl [H1]; · iexists _; iexact H1
  iintro ⟨H0, H1⟩
  isplitl [HΦ]; · iexact HΦ
  isplitl [Ho]; · iexact Ho
  have hin : win0_0.cut (grid0.coords t) (inBuf m c t) = iblk m c 0 t := win0_0.cut_fill _ _ _
  have hcut : win0_0.cut (grid0.coords t) (win0_0.fill (grid0.coords t) d0 (iblk m c 0 t))
      = win0_0.cut (grid0.coords t) (inBuf m c t) := by rw [hin]; exact win0_0.cut_fill _ _ _
  isplitl [H0]
  · iexists d0
    rw [hin]
    iexact H0
  · iexists outBuf (F := Ideal) (win0_0.fill (grid0.coords t) d0 (iblk m c 0 t))
    rw [win0_1.fill_congr_cut (grid0.coords t) (cut_outBuf (grid0.coords t) _ _ hcut)]
    iexact H1

/-- The library's body obligation, at every point (both windows are loose: their last block overhangs the array). -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of @main terminates, every array of the pipeline at what the library computes from the
    proof data and every other unscoped buffer as the host line after the region leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument array ends as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-! ## The result array, as one function of the operand array -/

/-- Each row of a [262144, 49] array summed, times the constant. -/
def rowsOut (A : S262144x49.Idx → EReal) : S262144x1.Idx → EReal :=
  fun i => (∑ k : Fin 49, A (ix2 (i 0) k)) * Cert.Pool.scale

/-- The two windows' blocks over the grid: block `t` starts at row `12288·t` and column 0; of the output's block the
    rows up to the array's end are moved (all 12288 of them, 4096 at the last point), and its one column. -/
theorem win_facts : ∀ t : Fin cfg0.N,
    win0_0.index t 0 = t.val ∧ win0_0.index t 1 = 0 ∧ win0_1.index t 0 = t.val ∧ win0_1.index t 1 = 0
    ∧ t.val * 12288 + win0_1.xsize (grid0.coords t) 0 = min ((t.val + 1) * 12288) 262144
    ∧ win0_1.xsize (grid0.coords t) 1 = 1 :=
  (by decide +kernel : ∀ t : Fin grid0.N,
    win0_0.index t 0 = t.val ∧ win0_0.index t 1 = 0 ∧ win0_1.index t 0 = t.val ∧ win0_1.index t 1 = 0
    ∧ t.val * 12288 + win0_1.xsize (grid0.coords t) 0 = min ((t.val + 1) * 12288) 262144
    ∧ win0_1.xsize (grid0.coords t) 1 = 1)

/-- What point `t` writes back is block `t` of the row means of the operand array. -/
theorem flushed_eq (c : Dev nD) (t : Fin cfg0.N) :
    (dats m 0 c).flushed 1 t = ((cfg0.win 1).blk t).view.read (Elt Ideal) (rowsOut (V m c main_call0_v0)) := by
  show win0_1.cut (grid0.coords t) ((dats m 0 c).after 1 t) = _
  rw [after_1, outBuf_eq]
  funext j
  show rowMean (inBuf m c t) (win0_1.xinj (grid0.coords t) j)
    = rowsOut (V m c main_call0_v0) (((cfg0.win 1).blk t).view.emb j)
  unfold rowMean rowsOut
  refine congrArg (· * Cert.Pool.scale) (Finset.sum_congr rfl fun k _ => ?_)
  have hr : (j 0).val < win0_0.xsize (grid0.coords t) 0 := (xsize_rows (grid0.coords t)) ▸ (j 0).isLt
  have hk : k.val < win0_0.xsize (grid0.coords t) 1 := (xsize_cols (grid0.coords t)).symm ▸ k.isLt
  let j' : (win0_0.xblock (grid0.coords t)).Idx := fun a => match a with
    | ⟨0, _⟩ => ⟨(j 0).val, hr⟩
    | ⟨1, _⟩ => ⟨k.val, hk⟩
  have e : win0_0.xinj (grid0.coords t) j' = ix2 (win0_1.xinj (grid0.coords t) j 0) k := by
    funext a
    apply Fin.ext
    match a with
    | ⟨0, _⟩ => rfl
    | ⟨1, _⟩ => rfl
  refine (congrArg (inBuf m c t) e).symm.trans ?_
  unfold inBuf
  rw [win0_0.fill_xinj]
  show V m c main_call0_v0 (((cfg0.win 0).blk t).view.emb j') = V m c main_call0_v0 _
  refine congrArg _ (funext fun a => Fin.ext ?_)
  obtain ⟨h00, h01, h10, h11, -, -⟩ := win_facts t
  match a with
  | ⟨0, _⟩ =>
    show win0_0.index t 0 * 12288 + 1 * (j 0).val = win0_1.index t 0 * 12288 + 1 * (j 0).val
    rw [h00, h10]
  | ⟨1, _⟩ =>
    show win0_0.index t 1 * 49 + 1 * k.val = k.val
    rw [h01]; omega

/-- An index of the result array is under point `t`'s block iff its row is among the block's rows inside the array. -/
theorem mem_blk (t : Fin cfg0.N) (i : S262144x1.Idx) :
    i ∈ ((cfg0.win 1).blk t).view.set ↔ t.val * 12288 ≤ (i 0).val ∧ (i 0).val < min ((t.val + 1) * 12288) 262144 := by
  show i ∈ ((View.whole main_call0_v1).slice (win0_1.rect t)).set ↔ _
  rw [View.set_slice_whole, Rect.mem_set_unit]
  obtain ⟨-, -, h10, h11, hx0, hx1⟩ := win_facts t
  have h1 : (i 1).val < 1 := (i 1).isLt
  constructor
  · intro h
    have := h 0
    change win0_1.index t 0 * 12288 ≤ (i 0).val ∧ (i 0).val < win0_1.index t 0 * 12288 + win0_1.xsize (grid0.coords t) 0 at this
    rw [h10] at this
    omega
  · intro h a
    match a with
    | ⟨0, _⟩ =>
      change win0_1.index t 0 * 12288 ≤ (i 0).val ∧ (i 0).val < win0_1.index t 0 * 12288 + win0_1.xsize (grid0.coords t) 0
      rw [h10]; omega
    | ⟨1, _⟩ =>
      change win0_1.index t 1 * 1 ≤ (i 1).val ∧ (i 1).val < win0_1.index t 1 * 1 + win0_1.xsize (grid0.coords t) 1
      rw [h11, hx1]; omega

/-- The 22 blocks cover the array: row `r` is in block `r / 12288`. -/
theorem cover (i : S262144x1.Idx) : ∃ t : Fin cfg0.N, (cfg0.win 1).flush t = true ∧ i ∈ ((cfg0.win 1).blk t).view.set := by
  have hi : (i 0).val < 262144 := (i 0).isLt
  have hN : cfg0.N = 22 := N_0
  refine ⟨⟨(i 0).val / 12288, by rw [hN]; omega⟩, flush0_1 _, ?_⟩
  rw [mem_blk]
  show (i 0).val / 12288 * 12288 ≤ (i 0).val ∧ (i 0).val < min (((i 0).val / 12288 + 1) * 12288) 262144
  omega

/-- The result array after the run: the row means of the operand array. -/
theorem final (c : Dev nD) : (dats m 0 c).arrAt 1 cfg0.N = rowsOut (V m c main_call0_v0) :=
  (dats m 0 c).arrAt_eq_of_cover 1 (rowsOut (V m c main_call0_v0)) (fun t _ => flushed_eq m c t) cover

end Cert.ReferenceIdeal.Rows

end
-- ==== Proof.RefResult.lean ====
/-
  The reference program around its kernel: the argument array [128, 2048, 7, 7] is reshaped (row-major) to
  [262144, 49] before the kernel and the kernel's [262144, 1] result to [128, 2048, 1, 1] after it. Read at an index
  (n, c, 0, 0), the program's result is the pooled value at leading position n·2048 + c: the 49 trailing entries of the
  argument there summed, times the constant.
-/
import proofs.«104513_g2000505477142475_pallasbulk_808_11_alg».proof.Proof.RefRun
import Idealize.ShloMosaic.Lib.StableHlo.Run

set_option maxRecDepth 16384

noncomputable section

namespace Cert.ReferenceIdeal.Rows

open Cert.ReferenceIdeal Cert.ReferenceIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The operand array as the region finds it: the argument reshaped. -/
theorem operand_eq (c : Dev nD) : (V m c main_call0_v0 : S262144x49.Idx → EReal)
    = shapeCast S262144x49 (m ((c : Thread nD τ).loc main_arg0)) shapeCasts_S128x2048x7x7_S262144x49 := by
  show StableHlo.after hostOps0 (fun b => m (c, b)) (Proc.devRef .tc main_call0_v0) = _
  after_results
  rfl

/-- The operand array at (f, k) is the argument at leading position f and trailing position k. -/
theorem operand_apply (c : Dev nD) (f : Fin 262144) (k : Fin 49) :
    V m c main_call0_v0 (ix2 f k) = m ((c : Thread nD τ).loc main_arg0) (Cert.Pool.src f.val k.val) := by
  rw [operand_eq]
  refine shapeCast_apply _ _ _ _ ?_
  have hf := f.isLt
  have hk := k.isLt
  show (S128x2048x7x7.rowMajor (Cert.Pool.src f.val k.val)).val = (S262144x49.rowMajor (ix2 f k)).val
  rw [Shape.rowMajor_val_four, Shape.rowMajor_val_two]
  show ((f.val / 2048 % 128 * 2048 + f.val % 2048) * 7 + k.val / 7 % 7) * 7 + k.val % 7 = f.val * 49 + k.val
  omega

/-- The program's result buffer after the run: the kernel's result array reshaped. -/
theorem result_eq (c : Dev nD) :
    (Pipeline.afterTail₀ cfgs (dats m) 0 (V0 m) [hostOps1] c main_v0 : S128x2048x1x1.Idx → EReal)
      = shapeCast S128x2048x1x1 (rowsOut (V m c main_call0_v0)) shapeCasts_S262144x1_S128x2048x1x1 := by
  unfold Pipeline.afterTail₀
  show StableHlo.after hostOps1 _ (Proc.devRef .tc main_v0) = _
  after_results
  have hW : Pipeline.withArrays (cfgs 0).spec c (V0 m c) (fun w => (dats m 0 c).arrAt w (cfgs 0).N)
      (Proc.devRef .tc main_call0_v1) = rowsOut (V m c main_call0_v0) :=
    (Pipeline.withArrays_arr spec0 launch0.win.arr_inj c _ _ 1).trans (final m c)
  funext i
  show shapeCast S128x2048x1x1 (Pipeline.withArrays (cfgs 0).spec c (V0 m c) (fun w => (dats m 0 c).arrAt w (cfgs 0).N)
      (Proc.devRef .tc main_call0_v1)) shapeCasts_S262144x1_S128x2048x1x1 i = _
  rw [hW]

/-- The program's result at (n, c, 0, 0): the pooled value at leading position n·2048 + c. -/
theorem result_apply (c : Dev nD) (i : S128x2048x1x1.Idx) :
    (Pipeline.afterTail₀ cfgs (dats m) 0 (V0 m) [hostOps1] c main_v0 : S128x2048x1x1.Idx → EReal) i
      = Cert.Pool.mean (m ((c : Thread nD τ).loc main_arg0)) ((i 0).val * 2048 + (i 1).val) := by
  rw [result_eq]
  have h0 : (i 0).val < 128 := (i 0).isLt
  have h1 : (i 1).val < 2048 := (i 1).isLt
  have h2 : (i 2).val < 1 := (i 2).isLt
  have h3 : (i 3).val < 1 := (i 3).isLt
  have hf : (i 0).val * 2048 + (i 1).val < 262144 := by omega
  refine (shapeCast_apply _ _ i (ix2 (⟨(i 0).val * 2048 + (i 1).val, hf⟩ : Fin 262144) (0 : Fin 1)) (by
    rw [Shape.rowMajor_val_two, Shape.rowMajor_val_four]
    show ((i 0).val * 2048 + (i 1).val) * 1 + 0 = (((i 0).val * 2048 + (i 1).val) * 1 + (i 2).val) * 1 + (i 3).val
    omega)).trans ?_
  unfold rowsOut Cert.Pool.mean
  refine congrArg (· * Cert.Pool.scale) (Finset.sum_congr rfl fun k _ => ?_)
  exact operand_apply m c ⟨(i 0).val * 2048 + (i 1).val, hf⟩ k

end Cert.ReferenceIdeal.Rows

end
-- ==== Proof.lean ====
/-
  Global average pooling, two ways, equal at the ideal values.

  Both programs map an argument x of shape [128, 2048, 7, 7] to the array of shape [128, 2048, 1, 1] whose entry
  (n, c, 0, 0) is (the sum over h, w of x[n, c, h, w]) times ONE constant, the single-precision number nearest 1/49 (the
  same bit pattern in both, so it is never evaluated).

  * The kernel transposes x to [7, 7, 128, 2048], sums blocks of 16 planes over the two leading axes, re-lays each
    [16, 2048] result row-major as [256, 128] inside a [2048, 128] array, and reshapes that to [128, 2048, 1, 1].
  * The reference reshapes x to [262144, 49], sums each row, and reshapes the [262144, 1] column to [128, 2048, 1, 1];
    it walks the rows 12288 at a time, and its last block holds only 4096 rows of the array.

  Every reshape preserves row-major position, so on both sides entry (n, c, 0, 0) is the pooled value at leading position
  n·2048 + c; the two sums differ only in how the 49 terms are indexed (a 7 × 7 square against 49 positions k = 7h + w),
  and finite sums of extended reals may be re-indexed freely: no finiteness of the input is used.
  The idealization rewrote nothing, so the kernel's idealized text is its own text read at the ideal values.
-/
import proofs.«104513_g2000505477142475_pallasbulk_808_11_alg».proof.Defs
import proofs.«104513_g2000505477142475_pallasbulk_808_11_alg».proof.Proof.Gen.Kernel
import proofs.«104513_g2000505477142475_pallasbulk_808_11_alg».proof.Proof.Gen.Kernel.Frame
import proofs.«104513_g2000505477142475_pallasbulk_808_11_alg».proof.Proof.Gen.KernelIdeal
import proofs.«104513_g2000505477142475_pallasbulk_808_11_alg».proof.Proof.Gen.KernelIdeal.Frame
import proofs.«104513_g2000505477142475_pallasbulk_808_11_alg».proof.Proof.Gen.ReferenceIdeal
import proofs.«104513_g2000505477142475_pallasbulk_808_11_alg».proof.Proof.Gen.ReferenceIdeal.Frame
import proofs.«104513_g2000505477142475_pallasbulk_808_11_alg».proof.Proof.Gen.Pre_finite_inputs
import proofs.«104513_g2000505477142475_pallasbulk_808_11_alg».proof.Proof.KerValue
import proofs.«104513_g2000505477142475_pallasbulk_808_11_alg».proof.Proof.RefResult
import Idealize.ShloMosaic.Adequacy
import Idealize.ShloMosaic.Init

noncomputable section

namespace Cert.Proof

open Idealize.ShloMosaic Idealize.ShloMosaic.TcCoe Idealize.SL.Sem

/-- The three programs run, and leave their argument as they found it. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Rows.frame m ρ

/-- Nothing was rewritten: nothing to preserve. -/
theorem preserves : Cert.preserves_Kernel_KernelIdeal := trivial

/-- Both results are the pooled values of the (common) argument, entry by entry. -/
theorem algebraic : Cert.algebraic_KernelIdeal_ReferenceIdeal := by
  intro m ρ m' ρ' _ hagree
  refine ⟨fun c => fun (i : Cert.KernelIdeal.S128x2048x1x1.Idx) =>
    Cert.Pool.mean (m ((c : Thread Cert.KernelIdeal.nD Cert.KernelIdeal.τ).loc Cert.KernelIdeal.main_arg0))
      ((i 0).val * 2048 + (i 1).val), ?_, ?_⟩
  · refine (θ_run Cert.KernelIdeal.defs _ _).mono (fun r h c => ⟨?_, ?_⟩) (Cert.KernelIdeal.Gen.run_main m ρ)
    · refine ((h c).2 Cert.KernelIdeal.main_v0 (Pipeline.mem_restRefs_of Cert.KernelIdeal.main_v0 (by decide) (by decide))).trans ?_
      funext i
      exact Cert.KernelIdeal.Planes.result_apply m c i
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
  · refine (θ_run Cert.ReferenceIdeal.defs _ _).mono (fun r h c => ⟨?_, ?_⟩) (Cert.ReferenceIdeal.Rows.run_main m' ρ')
    · refine ((h c).2 Cert.ReferenceIdeal.main_v0 (Pipeline.mem_restRefs_of Cert.ReferenceIdeal.main_v0 (by decide) (by decide))).trans ?_
      funext i
      refine (Cert.ReferenceIdeal.Rows.result_apply m' c i).trans ?_
      rw [hagree c]
    · exact ((h c).2 Cert.ReferenceIdeal.main_arg0 (Pipeline.mem_restRefs_of Cert.ReferenceIdeal.main_arg0 (by decide) (by decide))).trans
        (Cert.ReferenceIdeal.Gen.W_main_arg0 m' (Cert.ReferenceIdeal.Rows.dats m') c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
